-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v17) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x1 : Shape := ⟨2, ![512, 1]⟩
abbrev S1 : Shape := ⟨1, ![1]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x1 : S_.BroadcastsInDim S512x1 (![] : Fin 0 → Fin S512x1.rank)
  reducesTo_S512x1_S_d0_1 : S512x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S1 .f32) (main_arg5 : FVec F S1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S8192x512 .f32) (main_arg1 : FVec F S512x1 .f32) (main_arg2 : FVec F S1 .f32) (main_arg3 : FVec F S512x1 .f32) (main_arg4 : FVec F S1 .f32) (main_arg5 : FVec F S1 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x1 .f32 := Host.absf main_arg1
  let main_cst_0 : FVec F S_ .f32 := constant S_ .f32 0x7F800000#32
  let main_v5 : FVec F S512x1 .f32 := broadcastInDim S512x1 ![] bcast_S_S512x1 main_cst_0
  let main_v6 : IVec S512x1 1 := cmpf .olt main_v4 main_v5
  let main_c_1 : IVec S_ 1 := constantI S_ 1 1#1
  let main_v7 : IVec S_ 1 := (fun x v => Host.reduce IntOp.andi x v reducesTo_S512x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg4 main_arg5 main_v13 main_v16
-- ==== Kernel.lean ====
abbrev S8192x512 : Shape := ⟨2, ![8192, 512]⟩
abbrev S512x1 : Shape := ⟨2, ![512, 1]⟩
abbrev S1 : Shape := ⟨1, ![1]⟩
abbrev S512x2 : Shape := ⟨2, ![512, 2]⟩
abbrev S2 : Shape := ⟨1, ![2]⟩
abbrev S8192x2 : Shape := ⟨2, ![8192, 2]⟩
abbrev S1x2 : Shape := ⟨2, ![1, 2]⟩
abbrev S8192x1 : Shape := ⟨2, ![8192, 1]⟩
abbrev S_ : Shape := ⟨0, ![]⟩
abbrev S8192x8192 : Shape := ⟨2, ![8192, 8192]⟩
abbrev S2048x512 : Shape := ⟨2, ![2048, 512]⟩
abbrev S2048x1 : Shape := ⟨2, ![2048, 1]⟩
abbrev S2048x2048 : Shape := ⟨2, ![2048, 2048]⟩
abbrev S512x2048 : Shape := ⟨2, ![512, 2048]⟩

abbrev nBuf : Space → Nat
  | .hbm => 25
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S512x1, .f32⟩
  | .hbm, ⟨2, _⟩ => ⟨S1, .f32⟩
  | .hbm, ⟨3, _⟩ => ⟨S512x1, .f32⟩
  | .hbm, ⟨4, _⟩ => ⟨S1, .f32⟩
  | .hbm, ⟨5, _⟩ => ⟨S1, .f32⟩
  | .hbm, ⟨6, _⟩ => ⟨S512x2, .f32⟩
  | .hbm, ⟨7, _⟩ => ⟨S2, .f32⟩
  | .hbm, ⟨8, _⟩ => ⟨S8192x2, .f32⟩
  | .hbm, ⟨9, _⟩ => ⟨S1x2, .f32⟩
  | .hbm, ⟨10, _⟩ => ⟨S8192x2, .f32⟩
  | .hbm, ⟨11, _⟩ => ⟨S8192x2, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .bf16⟩
  | .hbm, ⟨23, _⟩ => ⟨S8192x512, .bf16⟩
  | .hbm, ⟨24, _⟩ => ⟨S8192x8192, .f32⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x1, .f32⟩
  | .local _ .vmem, ⟨5, _⟩ => ⟨S2048x1, .f32⟩
  | .local _ .vmem, ⟨6, _⟩ => ⟨S2048x2048, .f32⟩
  | .local _ .vmem, ⟨7, _⟩ => ⟨S2048x2048, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  concatenates_S512x1_S512x1_S512x2_d1 : Shape.Concatenates [S512x1, S512x1] S512x2 1
  concatenates_S1_S1_S2_d0 : Shape.Concatenates [S1, S1] S2 0
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  slices_S8192x2_S8192x1_0_0 : S8192x2.Slices ![0, 0] S8192x1
  slices_S8192x2_S8192x1_0_1 : S8192x2.Slices ![0, 1] S8192x1
  bcast_S_S8192x1 : S_.BroadcastsInDim S8192x1 (![] : Fin 0 → Fin S8192x1.rank)
  shapeCasts_S1_S_ : S1.ShapeCasts S_
  bcast_S_S8192x512 : S_.BroadcastsInDim S8192x512 (![] : Fin 0 → Fin S8192x512.rank)
  bitsLt_bf16_f32 : FTy.bits .bf16 < FTy.bits .f32
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  transposes_S2048x512_p1_0_S512x2048 : S2048x512.Transposes [1, 0] S512x2048
  inb_S2048x2048_S2048x2048_0_0 : ∀ a, (![0, 0] : Fin 2 → Nat) a + S2048x2048.size a ≤ S2048x2048.size a
  h_S2048x2048 : 0 < S2048x2048.numel
  iota_S2048x2048_d0_w32 : S2048x2048.Iotas .tc 32 [0]
  iota_S2048x2048_d1_w32 : S2048x2048.Iotas .tc 32 [1]
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  broadcasts_S2048x1_S2048x2048 : S2048x1.Broadcasts S2048x2048
  dot_S8192x512_S512x2_S8192x2_1_0_0_1_n_n_wf : DotDims.WF S8192x512 S512x2 S8192x2 [1] [0] [0] [1] [] []
  dot_S2048x512_S512x2048_S2048x2048_1_0_0_1_n_n_wf : DotDims.WF S2048x512 S512x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x512.size a
  hwx0_0 : ∀ i : grid0.Coords, EltTy.bits .bf16 = 32 ∨ (Rect.block (s := S8192x512) S2048x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S8192x512.size a
  hwx0_1 : ∀ i : grid0.Coords, EltTy.bits .bf16 = 32 ∨ (Rect.block (s := S8192x512) S2048x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1.size a ≤ S8192x1.size a
  hwx0_2 : ∀ i : grid0.Coords, EltTy.bits .f32 = 32 ∨ (Rect.block (s := S8192x1) S2048x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S8192x8192.size a
  hwx0_3 : ∀ i : grid0.Coords, EltTy.bits .f32 = 32 ∨ (Rect.block (s := S8192x8192) S2048x2048.size (cc0_transform_3 i) (hinb0_3 i)).WholeWords (EltTy.packing .f32)

variable [Facts₀]

def dot_S8192x512_S512x2_S8192x2_1_0_0_1_n_n : DotDims S8192x512 S512x2 S8192x2 where
  lhsContracting := [1]
  rhsContracting := [0]
  lhsNonContracting := [0]
  rhsNonContracting := [1]
  lhsBatch := []
  rhsBatch := []
  wf := dot_S8192x512_S512x2_S8192x2_1_0_0_1_n_n_wf
def dot_S2048x512_S512x2048_S2048x2048_1_0_0_1_n_n : DotDims S2048x512 S512x2048 S2048x2048 where
  lhsContracting := [1]
  rhsContracting := [0]
  lhsNonContracting := [0]
  rhsNonContracting := [1]
  lhsBatch := []
  rhsBatch := []
  wf := dot_S2048x512_S512x2048_S2048x2048_1_0_0_1_n_n_wf

abbrev win0_0 : Pipeline.Window sig grid0 :=
  Pipeline.Window.ofSpec (Memref.whole main_v15) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S2048x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2048x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x1 : Shape := ⟨2, ![512, 1]⟩
abbrev S1 : Shape := ⟨1, ![1]⟩
abbrev S8192x1 : Shape := ⟨2, ![8192, 1]⟩
abbrev S1x1 : Shape := ⟨2, ![1, 1]⟩
abbrev S8192 : Shape := ⟨1, ![8192]⟩
abbrev S_ : Shape := ⟨0, ![]⟩
abbrev S512x8192 : Shape := ⟨2, ![512, 8192]⟩
abbrev S8192x8192 : Shape := ⟨2, ![8192, 8192]⟩
abbrev S8192x2 : Shape := ⟨2, ![8192, 2]⟩

abbrev nBuf : Space → Nat
  | .hbm => 44
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x1, .f32⟩
  | .hbm, ⟨2, _⟩ => ⟨S1, .f32⟩
  | .hbm, ⟨3, _⟩ => ⟨S512x1, .f32⟩
  | .hbm, ⟨4, _⟩ => ⟨S1, .f32⟩
  | .hbm, ⟨5, _⟩ => ⟨S1, .f32⟩
  | .hbm, ⟨6, _⟩ => ⟨S8192x1, .f32⟩
  | .hbm, ⟨7, _⟩ => ⟨S1x1, .f32⟩
  | .hbm, ⟨8, _⟩ => ⟨S8192x1, .f32⟩
  | .hbm, ⟨9, _⟩ => ⟨S8192x1, .f32⟩
  | .hbm, ⟨10, _⟩ => ⟨S8192x1, .f32⟩
  | .hbm, ⟨11, _⟩ => ⟨S1x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192, .f32⟩
  | .hbm, ⟨17, _⟩ => ⟨S_, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S512x8192, .f32⟩
  | .hbm, ⟨24, _⟩ => ⟨S8192x8192, .f32⟩
  | .hbm, ⟨25, _⟩ => ⟨S8192, .i32⟩
  | .hbm, ⟨26, _⟩ => ⟨S_, .i32⟩
  | .hbm, ⟨27, _⟩ => ⟨S8192, .i32⟩
  | .hbm, ⟨28, _⟩ => ⟨S8192, .i1⟩
  | .hbm, ⟨29, _⟩ => ⟨S_, .i32⟩
  | .hbm, ⟨30, _⟩ => ⟨S8192, .i32⟩
  | .hbm, ⟨31, _⟩ => ⟨S8192, .i32⟩
  | .hbm, ⟨32, _⟩ => ⟨S8192, .i32⟩
  | .hbm, ⟨33, _⟩ => ⟨S_, .i32⟩
  | .hbm, ⟨34, _⟩ => ⟨S8192, .i32⟩
  | .hbm, ⟨35, _⟩ => ⟨S8192, .i1⟩
  | .hbm, ⟨36, _⟩ => ⟨S_, .i32⟩
  | .hbm, ⟨37, _⟩ => ⟨S8192, .i32⟩
  | .hbm, ⟨38, _⟩ => ⟨S8192, .i32⟩
  | .hbm, ⟨39, _⟩ => ⟨S8192, .i32⟩
  | .hbm, ⟨40, _⟩ => ⟨S8192x1, .i32⟩
  | .hbm, ⟨41, _⟩ => ⟨S8192x1, .i32⟩
  | .hbm, ⟨42, _⟩ => ⟨S8192x2, .i32⟩
  | .hbm, ⟨43, _⟩ => ⟨S8192x8192, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_v19 : Ref sig .tc := ⟨.hbm, 27, rfl⟩
abbrev main_v20 : Ref sig .tc := ⟨.hbm, 28, rfl⟩
abbrev main_c_0 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_c_1 : Ref sig .tc := ⟨.hbm, 33, rfl⟩
abbrev main_v24 : Ref sig .tc := ⟨.hbm, 34, rfl⟩
abbrev main_v25 : Ref sig .tc := ⟨.hbm, 35, rfl⟩
abbrev main_c_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  shapeCasts_S8192x1_S8192 : S8192x1.ShapeCasts S8192
  bcast_S_S8192 : S_.BroadcastsInDim S8192 (![] : Fin 0 → Fin S8192.rank)
  shapeCasts_S1_S_ : S1.ShapeCasts S_
  bcast_S_S8192x512 : S_.BroadcastsInDim S8192x512 (![] : Fin 0 → Fin S8192x512.rank)
  transposes_S8192x512_S512x8192_1_0 : S8192x512.Transposes [1, 0] S512x8192
  bcast_S8192_S8192x1_0 : S8192.BroadcastsInDim S8192x1 (![0] : Fin 1 → Fin S8192x1.rank)
  concatenates_S8192x1_S8192x1_S8192x2_d1 : Shape.Concatenates [S8192x1, S8192x1] S8192x2 1
  dot_S8192x512_S512x1_S8192x1_1_0_0_1_n_n_wf : DotDims.WF S8192x512 S512x1 S8192x1 [1] [0] [0] [1] [] []
  dot_S8192x512_S512x8192_S8192x8192_1_0_0_1_n_n_wf : DotDims.WF S8192x512 S512x8192 S8192x8192 [1] [0] [0] [1] [] []
  scatter_S8192x8192_S8192x2_S8192_n_01_01_1_wf : ScatterDims.WF S8192x8192 S8192x2 S8192 [] [0, 1] [0, 1] 1

variable [Facts₀]

def dot_S8192x512_S512x1_S8192x1_1_0_0_1_n_n : DotDims S8192x512 S512x1 S8192x1 where
  lhsContracting := [1]
  rhsContracting := [0]
  lhsNonContracting := [0]
  rhsNonContracting := [1]
  lhsBatch := []
  rhsBatch := []
  wf := dot_S8192x512_S512x1_S8192x1_1_0_0_1_n_n_wf
def dot_S8192x512_S512x8192_S8192x8192_1_0_0_1_n_n : DotDims S8192x512 S512x8192 S8192x8192 where
  lhsContracting := [1]
  rhsContracting := [0]
  lhsNonContracting := [0]
  rhsNonContracting := [1]
  lhsBatch := []
  rhsBatch := []
  wf := dot_S8192x512_S512x8192_S8192x8192_1_0_0_1_n_n_wf
def scatter_S8192x8192_S8192x2_S8192_n_01_01_1 : ScatterDims S8192x8192 S8192x2 S8192 where
  updateWindowDims := []
  insertedWindowDims := [0, 1]
  scatterDimsToOperandDims := [0, 1]
  indexVectorDim := 1
  wf := scatter_S8192x8192_S8192x2_S8192_n_01_01_1_wf

class Facts : Prop extends Facts₀ where

variable [Facts]
-- ==== Proof.Spec.lean ====
/-
  The two results of the covariance head, as functions of the six argument arrays, index by index, on the
  extended reals.

  With x : [8192, 512], two weight columns w : [512, 1], biases b : [1] and a scale rho : [1]:
    * the linear head of row r is  head x w b r = (sum over k of x[r,k] * w[k,0]) + b[0];
    * the mean result is the column  mean[r,0] = head x w_mu b_mu r;
    * the covariance result is the scaled Gram matrix  gram[r,c] = sum over k of (x[r,k] * rho[0]) * x[c,k]
      with its diagonal replaced by the softplus of the variance head plus a fixed literal:
      cov[r,r] = log1p (exp (head x w_var b_var r)) + eps.
  Both programs compute exactly these sums in this order of factors, so no law beyond reading the
  operations index by index is needed to join them.
-/
import Idealize.ShloMosaic.PureOps.Ideal
import Idealize.ShloMosaic.Lib.ValueIdx

noncomputable section

namespace Cert.CovSpec

open Idealize.ShloMosaic Idealize.ShloMosaic.ValueIdx
open scoped BigOperators

abbrev SX : Shape := ⟨2, ![8192, 512]⟩
abbrev SW : Shape := ⟨2, ![512, 1]⟩
abbrev SB : Shape := ⟨1, ![1]⟩
abbrev SMean : Shape := ⟨2, ![8192, 1]⟩
abbrev SCov : Shape := ⟨2, ![8192, 8192]⟩

/-- The linear head of row `r`: the row's inner product with the weight column, plus the bias. -/
def head (x : FVec Ideal SX .f32) (w : FVec Ideal SW .f32) (b : FVec Ideal SB .f32) (r : Fin 8192) : EReal :=
  (∑ k : Fin 512, x (ix2 r k) * w (ix2 k 0)) + b (ix1 0)

/-- The mean result: the head of each row, as a column. -/
def mean (x : FVec Ideal SX .f32) (w : FVec Ideal SW .f32) (b : FVec Ideal SB .f32) : FVec Ideal SMean .f32 :=
  fun i => head x w b (i 0)

/-- The literal added to every diagonal entry (the binary value of the f32 nearest 1e-8). -/
def eps : EReal := Ideal.ofBits .f32 0x322BCC77#32

/-- The diagonal entry of row `r`: softplus of the variance head, plus the literal. -/
def diag (x : FVec Ideal SX .f32) (w : FVec Ideal SW .f32) (b : FVec Ideal SB .f32) (r : Fin 8192) : EReal :=
  Ideal.log1p (Ideal.exp (head x w b r)) + eps

/-- The scaled Gram entry of rows `r` and `c`. -/
def gram (x : FVec Ideal SX .f32) (rho : FVec Ideal SB .f32) (r c : Fin 8192) : EReal :=
  ∑ k : Fin 512, (x (ix2 r k) * rho (ix1 0)) * x (ix2 c k)

/-- The covariance result: the scaled Gram matrix with its diagonal replaced. -/
def cov (x : FVec Ideal SX .f32) (rho : FVec Ideal SB .f32) (w : FVec Ideal SW .f32) (b : FVec Ideal SB .f32) :
    FVec Ideal SCov .f32 :=
  fun i => if (i 0).val = (i 1).val then diag x w b (i 0) else gram x rho (i 0) (i 1)

theorem cov_diag (x : FVec Ideal SX .f32) (rho : FVec Ideal SB .f32) (w : FVec Ideal SW .f32) (b : FVec Ideal SB .f32)
    (r : Fin 8192) : cov x rho w b (ix2 r r) = diag x w b r := by
  show (if r.val = r.val then _ else _) = _
  exact if_pos rfl

theorem cov_off (x : FVec Ideal SX .f32) (rho : FVec Ideal SB .f32) (w : FVec Ideal SW .f32) (b : FVec Ideal SB .f32)
    (r c : Fin 8192) (h : r ≠ c) : cov x rho w b (ix2 r c) = gram x rho r c := by
  show (if r.val = c.val then _ else _) = _
  exact if_neg fun e => h (Fin.ext e)

end Cert.CovSpec

end
-- ==== Proof.KernelHost.lean ====
/-
  The host operations that run before the tiled region, read index by index.

  Before the region is entered the program forms, from the six argument arrays,
    * both linear heads at once: the product of x with the two weight columns set side by side, plus the two
      biases spread along every row; column 0 of that array is the mean result, column 1 feeds the diagonal;
    * the diagonal column: log1p (exp (column 1)) plus a fixed literal;
    * x times the scale rho[0], and x itself, each passed through a change of format that is the identity on
      the extended reals.
  Each lemma below reads one of these arrays at an index in terms of the specification's `head`, `mean` and
  `diag`. Nothing is evaluated over the rows: every step names the one operand index an entry comes from.
-/
import proofs.«161386_j89807766159361_2_alg».proof.Proof.Gen.KernelIdeal.Frame
import proofs.«161386_j89807766159361_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

namespace Cert.KernelHost

open Cert.KernelIdeal Cert.KernelIdeal.Gen Idealize.ShloMosaic Idealize.ShloMosaic.TcCoe Idealize.ShloMosaic.ValueIdx
open Idealize.SL.Sem Idealize.ShloMosaic.StableHlo
open scoped BigOperators

variable (m : (ℓ : Loc nD τ sig) → Buf (Elt Ideal) ℓ) (c : Dev nD)

/-- The six argument arrays of the program as launched on core `c`, typed as arrays of extended reals. -/
abbrev x : FVec Ideal S8192x512 .f32 := m ((c : Thread nD τ).loc main_arg0)
abbrev wMu : FVec Ideal S512x1 .f32 := m ((c : Thread nD τ).loc main_arg1)
abbrev rho : FVec Ideal S1 .f32 := m ((c : Thread nD τ).loc main_arg2)
abbrev wVar : FVec Ideal S512x1 .f32 := m ((c : Thread nD τ).loc main_arg3)
abbrev bMu : FVec Ideal S1 .f32 := m ((c : Thread nD τ).loc main_arg4)
abbrev bVar : FVec Ideal S1 .f32 := m ((c : Thread nD τ).loc main_arg5)

/-! ## The two linear heads as one product -/

/-- The two weight columns side by side. -/
def weights (w0 w1 : FVec Ideal S512x1 .f32) : FVec Ideal S512x2 .f32 :=
  concatenate S512x2 1 [⟨S512x1, w0⟩, ⟨S512x1, w1⟩] concatenates_S512x1_S512x1_S512x2_d1

/-- The two biases one after the other. -/
def biases (b0 b1 : FVec Ideal S1 .f32) : FVec Ideal S2 .f32 :=
  concatenate S2 0 [⟨S1, b0⟩, ⟨S1, b1⟩] concatenates_S1_S1_S2_d0

/-- Both heads of every row: the product with the two columns plus the two biases along each row. -/
def heads (x0 : FVec Ideal S8192x512 .f32) (w0 w1 : FVec Ideal S512x1 .f32) (b0 b1 : FVec Ideal S1 .f32) :
    FVec Ideal S8192x2 .f32 :=
  addf (Host.dotGeneral dot_S8192x512_S512x2_S8192x2_1_0_0_1_n_n none x0 (weights w0 w1))
    (broadcastInDim S8192x2 ![0, 1] bcast_S1x2_S8192x2_0_1 (broadcastInDim S1x2 ![1] bcast_S2_S1x2_1 (biases b0 b1)))

theorem weights_col0 (w0 w1 : FVec Ideal S512x1 .f32) (k : Fin 512) : weights w0 w1 (ix2 k 0) = w0 (ix2 k 0) := by
  unfold weights
  exact concatenate_pair_apply_left 1 w0 w1 concatenates_S512x1_S512x1_S512x2_d1 (ix2 k 0) rfl (ix2 k 0)
    (fun b => match b with
      | ⟨0, _⟩ => rfl
      | ⟨1, _⟩ => rfl)

theorem weights_col1 (w0 w1 : FVec Ideal S512x1 .f32) (k : Fin 512) : weights w0 w1 (ix2 k 1) = w1 (ix2 k 0) := by
  unfold weights
  exact concatenate_pair_apply_right 1 w0 w1 concatenates_S512x1_S512x1_S512x2_d1 (ix2 k 1) rfl rfl (ix2 k 0)
    (fun b => match b with
      | ⟨0, _⟩ => fun _ => rfl
      | ⟨1, _⟩ => fun h => absurd rfl h)
    rfl

theorem biases_0 (b0 b1 : FVec Ideal S1 .f32) : biases b0 b1 (ix1 0) = b0 (ix1 0) := by
  unfold biases
  exact concatenate_pair_apply_left 0 b0 b1 concatenates_S1_S1_S2_d0 (ix1 0) rfl (ix1 0)
    (fun b => match b with
      | ⟨0, _⟩ => rfl)

theorem biases_1 (b0 b1 : FVec Ideal S1 .f32) : biases b0 b1 (ix1 1) = b1 (ix1 0) := by
  unfold biases
  exact concatenate_pair_apply_right 0 b0 b1 concatenates_S1_S1_S2_d0 (ix1 1) rfl rfl (ix1 0)
    (fun b => match b with
      | ⟨0, _⟩ => fun h => absurd rfl h)
    rfl

theorem lhs_0 (i : S8192x2.Idx) (q : dot_S8192x512_S512x2_S8192x2_1_0_0_1_n_n.contr.Idx) : (dot_S8192x512_S512x2_S8192x2_1_0_0_1_n_n.lhsIdx i q 0).val = (i 0).val := by
  unfold DotDims.lhsIdx
  rw [dif_neg (show ¬(0 : Fin S8192x512.rank) ∈ dot_S8192x512_S512x2_S8192x2_1_0_0_1_n_n.lhsBatch by decide), dif_pos (show (0 : Fin S8192x512.rank) ∈ dot_S8192x512_S512x2_S8192x2_1_0_0_1_n_n.lhsNonContracting by decide)]
  rfl
theorem lhs_1 (i : S8192x2.Idx) (q : dot_S8192x512_S512x2_S8192x2_1_0_0_1_n_n.contr.Idx) : (dot_S8192x512_S512x2_S8192x2_1_0_0_1_n_n.lhsIdx i q 1).val = (q ⟨0, by decide⟩).val :=
  dot_S8192x512_S512x2_S8192x2_1_0_0_1_n_n.lhsIdx_val_of_single rfl i q
theorem rhs_0 (i : S8192x2.Idx) (q : dot_S8192x512_S512x2_S8192x2_1_0_0_1_n_n.contr.Idx) : (dot_S8192x512_S512x2_S8192x2_1_0_0_1_n_n.rhsIdx i q 0).val = (q ⟨0, by decide⟩).val :=
  dot_S8192x512_S512x2_S8192x2_1_0_0_1_n_n.rhsIdx_val_of_single rfl i q
theorem rhs_1 (i : S8192x2.Idx) (q : dot_S8192x512_S512x2_S8192x2_1_0_0_1_n_n.contr.Idx) : (dot_S8192x512_S512x2_S8192x2_1_0_0_1_n_n.rhsIdx i q 1).val = (i 1).val := by
  unfold DotDims.rhsIdx
  rw [dif_neg (show ¬(1 : Fin S512x2.rank) ∈ dot_S8192x512_S512x2_S8192x2_1_0_0_1_n_n.rhsBatch by decide), dif_pos (show (1 : Fin S512x2.rank) ∈ dot_S8192x512_S512x2_S8192x2_1_0_0_1_n_n.rhsNonContracting by decide)]
  rfl

/-- The product's entry in row `r`, column `j` is the row's inner product with column `j`. -/
theorem dot_apply (x0 : FVec Ideal S8192x512 .f32) (w : FVec Ideal S512x2 .f32) (r : Fin 8192) (j : Fin 2) :
    Host.dotGeneral dot_S8192x512_S512x2_S8192x2_1_0_0_1_n_n none x0 w (ix2 r j) = ∑ k : Fin 512, x0 (ix2 r k) * w (ix2 k j) := by
  simp only [Host.dotGeneral]
  rw [Ideal.dotGeneral_apply, ← Equiv.sum_comp (contrEquiv1 dot_S8192x512_S512x2_S8192x2_1_0_0_1_n_n 512 rfl rfl).symm]
  refine Finset.sum_congr rfl fun k _ => ?_
  have hk := contrEquiv1_symm_val dot_S8192x512_S512x2_S8192x2_1_0_0_1_n_n 512 rfl rfl k
  have el : dot_S8192x512_S512x2_S8192x2_1_0_0_1_n_n.lhsIdx (ix2 r j) ((contrEquiv1 dot_S8192x512_S512x2_S8192x2_1_0_0_1_n_n 512 rfl rfl).symm k) = ix2 r k := funext fun a => Fin.ext (by
    match a with
    | ⟨0, _⟩ => exact lhs_0 _ _
    | ⟨1, _⟩ => exact (lhs_1 _ _).trans hk)
  have er : dot_S8192x512_S512x2_S8192x2_1_0_0_1_n_n.rhsIdx (ix2 r j) ((contrEquiv1 dot_S8192x512_S512x2_S8192x2_1_0_0_1_n_n 512 rfl rfl).symm k) = ix2 k j := funext fun a => Fin.ext (by
    match a with
    | ⟨0, _⟩ => exact (rhs_0 _ _).trans hk
    | ⟨1, _⟩ => exact rhs_1 _ _)
  rw [el, er]

/-- The biases spread along every row: the entry in column `j` is bias `j`. -/
theorem bcast_apply (b : FVec Ideal S2 .f32) (r : Fin 8192) (j : Fin 2) :
    broadcastInDim S8192x2 ![0, 1] bcast_S1x2_S8192x2_0_1 (broadcastInDim S1x2 ![1] bcast_S2_S1x2_1 b) (ix2 r j) = b (ix1 j) := by
  refine (broadcastInDim_apply _ bcast_S1x2_S8192x2_0_1 _ (ix2 r j) (ix2 0 j) (fun a => match a with
    | ⟨0, _⟩ => by show 0 = if (1 : Nat) = 1 then 0 else r.val; rw [if_pos rfl]
    | ⟨1, _⟩ => by show j.val = if (2 : Nat) = 1 then 0 else j.val; rw [if_neg (by decide)])).trans ?_
  exact broadcastInDim_apply _ bcast_S2_S1x2_1 b (ix2 0 j) (ix1 j) (fun a => match a with
    | ⟨0, _⟩ => by show j.val = if (2 : Nat) = 1 then 0 else j.val; rw [if_neg (by decide)])

theorem heads_col0 (x0 : FVec Ideal S8192x512 .f32) (w0 w1 : FVec Ideal S512x1 .f32) (b0 b1 : FVec Ideal S1 .f32) (r : Fin 8192) :
    heads x0 w0 w1 b0 b1 (ix2 r 0) = CovSpec.head x0 w0 b0 r := by
  unfold heads CovSpec.head
  rw [addf_apply, dot_apply, bcast_apply, biases_0]
  simp only [weights_col0]

theorem heads_col1 (x0 : FVec Ideal S8192x512 .f32) (w0 w1 : FVec Ideal S512x1 .f32) (b0 b1 : FVec Ideal S1 .f32) (r : Fin 8192) :
    heads x0 w0 w1 b0 b1 (ix2 r 1) = CovSpec.head x0 w1 b1 r := by
  unfold heads CovSpec.head
  rw [addf_apply, dot_apply, bcast_apply, biases_1]
  simp only [weights_col1]

/-! ## The buffers when the region is entered -/

/-- The second input window's array is the argument `x` itself: the change of format is the identity on the
    extended reals. -/
theorem v16_eq : V m c main_v16
    = (truncf .bf16 (x m c) bitsLt_bf16_f32 : FVec Ideal S8192x512 .bf16) := by
  dsimp only [Gen.V, Gen.hostOps0]
  after_results

/-- The first input window's array is `x` times the scale, spread from its one element. -/
theorem v15_eq : V m c main_v15
    = (truncf .bf16 (mulf (x m c) (broadcastInDim S8192x512 ![] bcast_S_S8192x512 (shapeCast S_ (rho m c) shapeCasts_S1_S_)))
        bitsLt_bf16_f32 : FVec Ideal S8192x512 .bf16) := by
  dsimp only [Gen.V, Gen.hostOps0]
  after_results
  rfl

/-- The first result: column 0 of the two heads. -/
theorem v6_eq : V m c main_v6
    = (extractStridedSlice S8192x1 ![0, 0] (heads (x m c) (wMu m c) (wVar m c) (bMu m c) (bVar m c))
        slices_S8192x2_S8192x1_0_0 : FVec Ideal S8192x1 .f32) := by
  dsimp only [Gen.V, Gen.hostOps0]
  after_results
  rfl

/-- The third input window's array: the softplus of column 1 of the two heads, plus the literal. -/
theorem v11_eq : V m c main_v11
    = (addf (Host.log1p (Host.exp (extractStridedSlice S8192x1 ![0, 1] (heads (x m c) (wMu m c) (wVar m c) (bMu m c) (bVar m c))
          slices_S8192x2_S8192x1_0_1)))
        (broadcastInDim S8192x1 ![] bcast_S_S8192x1 (constant (F := Ideal) S_ .f32 0x322BCC77#32)) : FVec Ideal S8192x1 .f32) := by
  dsimp only [Gen.V, Gen.hostOps0]
  after_results
  rfl

/-- Window 1's array at `(r, k)` is `x[r, k]`. -/
theorem v16_apply (r : Fin 8192) (k : Fin 512) :
    (V m c main_v16 : FVec Ideal S8192x512 .bf16) (ix2 r k) = x m c (ix2 r k) := by
  rw [v16_eq]
  rfl

/-- Window 0's array at `(r, k)` is `x[r, k] * rho[0]`. -/
theorem v15_apply (r : Fin 8192) (k : Fin 512) :
    (V m c main_v15 : FVec Ideal S8192x512 .bf16) (ix2 r k) = x m c (ix2 r k) * rho m c (ix1 0) := by
  rw [v15_eq, truncf_apply, mulf_apply]
  congr 1
  refine (broadcastInDim_apply _ bcast_S_S8192x512 _ (ix2 r k) ix0 (fun a => a.elim0)).trans ?_
  exact shapeCast_apply _ shapeCasts_S1_S_ ix0 (ix1 0) (by rewrite [Shape.rowMajor_val_one]; rfl)

/-- Window 2's array at `(r, 0)` is the diagonal entry of row `r`. -/
theorem v11_apply (r : Fin 8192) :
    (V m c main_v11 : FVec Ideal S8192x1 .f32) (ix2 r 0) = CovSpec.diag (x m c) (wVar m c) (bVar m c) r := by
  rw [v11_eq, addf_apply]
  unfold CovSpec.diag CovSpec.eps
  -- the literal spread over the column reads as the literal at every index; what is left is the softplus
  congr 1
  show Ideal.log1p (Ideal.exp (extractStridedSlice S8192x1 ![0, 1] (heads (x m c) (wMu m c) (wVar m c) (bMu m c) (bVar m c))
      slices_S8192x2_S8192x1_0_1 (ix2 r 0))) = _
  rw [slice2_axis1_apply 1 _ slices_S8192x2_S8192x1_0_1 r 0 1 rfl, heads_col1]

/-- The first result is the mean column of the specification. -/
theorem v6_mean : (V m c main_v6 : FVec Ideal S8192x1 .f32) = CovSpec.mean (x m c) (wMu m c) (bMu m c) := by
  rw [v6_eq]
  funext i
  obtain ⟨r, j, rfl⟩ : ∃ (r : Fin 8192) (j : Fin 1), i = ix2 r j := ⟨i 0, i 1, eq_ix2 i⟩
  obtain rfl : j = 0 := Subsingleton.elim _ _
  refine (slice2_axis1_apply 0 _ slices_S8192x2_S8192x1_0_0 r 0 0 rfl).trans ?_
  exact heads_col0 _ _ _ _ _ r

end Cert.KernelHost

end
-- ==== Proof.Pieces.lean ====
/-
  What the kernel body leaves in the output tile, per control case, as a pure function of the tiles it loads.

  Off the diagonal (grid coordinates differ) the body makes one store covering the whole [2048, 2048] tile: the
  product of the scaled row tile with the transposed column tile. On a diagonal tile it makes a second covering
  store after the first: the same product with its own diagonal replaced by the broadcast column of variances.
  A covering store made last decides the whole tile, so each case leaves exactly its last store's payload.
-/
import proofs.«161386_j89807766159361_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Tile

open Cert.KernelIdeal Cert.KernelIdeal.Gen

variable {F : FTy → Type} [FloatOps F]

/-- The zero offsets of a whole-tile rectangle, as a constant function. -/
theorem hz : (![0, 0] : Fin 2 → Nat) = fun _ => 0 := funext fun a => by fin_cases a <;> rfl

/-- Off the diagonal the output tile ends as the tile product of the two loaded input tiles. -/
theorem out_off (c : Dev nD) (i : grid0.Coords) (a2 : Memref sig .tc .vmem S2048x512 .bf16) (h2 : a2.IsWhole)
    (a3 : Memref sig .tc .vmem S2048x512 .bf16) (h3 : a3.IsWhole) (a4 : Memref sig .tc .vmem S2048x1 .f32) (h4 : a4.IsWhole)
    (a5 : Memref sig .tc .vmem S2048x2048 .f32) (h5 : a5.IsWhole) (hc : ¬cond0_0 i)
    (x0 : Vec F S2048x512 .bf16) (x1 : Vec F S2048x512 .bf16) (x2 : Vec F S2048x1 .f32) :
    out0_B_3 c i a2 h2 a3 h3 a4 h4 a5 h5 hc x0 x1 x2 = k0_pay1 x0 x1 := by
  unfold out0_B_3
  rw [View.read_writes_eq_canon _ _ _ (cover0_B_3 c i a2 h2 a3 h3 a4 h4 a5 h5 hc x0 x1 x2)]
  unfold kernelRun0_B
  dsimp only
  rw [View.canon_unit_zero hz]
  simp only [View.readAt_eq_ld, h2.read_unread, h3.read_unread, View.ld_unit_zero (S := S2048x512) hz]

/-- On the diagonal the output tile ends as the second store's payload: the tile product with its diagonal replaced. -/
theorem out_diag (c : Dev nD) (i : grid0.Coords) (a2 : Memref sig .tc .vmem S2048x512 .bf16) (h2 : a2.IsWhole)
    (a3 : Memref sig .tc .vmem S2048x512 .bf16) (h3 : a3.IsWhole) (a4 : Memref sig .tc .vmem S2048x1 .f32) (h4 : a4.IsWhole)
    (a5 : Memref sig .tc .vmem S2048x2048 .f32) (h5 : a5.IsWhole) (hc : cond0_0 i)
    (x0 : Vec F S2048x512 .bf16) (x1 : Vec F S2048x512 .bf16) (x2 : Vec F S2048x1 .f32) :
    out0_A_3 c i a2 h2 a3 h3 a4 h4 a5 h5 hc x0 x1 x2 = k0_pay2 x0 x1 x2 := by
  unfold out0_A_3
  rw [View.read_writes_eq_canon _ _ _ (cover0_A_3 c i a2 h2 a3 h3 a4 h4 a5 h5 hc x0 x1 x2)]
  unfold kernelRun0_A
  dsimp only
  rw [View.canon_cons_unit_zero (S := S2048x2048) hz]
  simp only [View.readAt_eq_ld, h2.read_unread, h3.read_unread, h4.read_unread, View.ld_unit_zero (S := S2048x512) hz,
    View.ld_unit_zero (S := S2048x1) hz]

end Cert.KernelIdeal.Tile

end
-- ==== Proof.LibColumnBroadcast.lean ====
/-
  A column broadcast along rows, read at an index: the companion of the library's one-row form
  (`broadcastTo_1b_ab_apply`, one row repeated down the rows) for one COLUMN repeated across the columns.
-/
import Idealize.ShloMosaic.Lib.Pipeline.Value
import Idealize.ShloMosaic.Lib.ValueIdx

namespace Idealize.ShloMosaic.ValueIdx

open Idealize.ShloMosaic

variable {α : Type}

/-- An `[a, 1]` array broadcast to `[a, b]` reads, at `(p, c)`, the operand's one column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.Payload.lean ====
/-
  The two store payloads of the kernel body, read at an index of the [2048, 2048] output tile, on the extended reals.

  With x0 the loaded (scaled) row tile and x1 the loaded column tile, both [2048, 512], the first payload is the
  product of x0 with the transpose of x1 into a zero accumulator: at (p, q) it is the sum over k of x0[p,k] * x1[q,k].
  The second payload compares the two coordinate counters of the tile and, where they agree, puts the broadcast
  variance column x2[p,0] in place of the product: at (p, q) it is x2[p,0] when p = q and the product otherwise.
-/
import proofs.«161386_j89807766159361_2_alg».proof.Proof.Gen.KernelIdeal.Skeleton
import proofs.«161386_j89807766159361_2_alg».proof.Proof.LibColumnBroadcast
import Idealize.ShloMosaic.Lib.Pipeline.Value
import Idealize.ShloMosaic.Lib.ValueIdx
import Idealize.ShloMosaic.PureOps.Ideal.Laws

noncomputable section

open Idealize.ShloMosaic Idealize.ShloMosaic.ValueIdx

namespace Cert.KernelIdeal.Tile

open Cert.KernelIdeal Cert.KernelIdeal.Gen
open scoped BigOperators

/-- The tile product's dimension record. -/
abbrev tileDot : DotDims S2048x512 S512x2048 S2048x2048 := dot_S2048x512_S512x2048_S2048x2048_1_0_0_1_n_n

theorem tileDot_lhs0 (j : S2048x2048.Idx) (q : tileDot.contr.Idx) : (tileDot.lhsIdx j q 0).val = (j 0).val := by
  unfold DotDims.lhsIdx
  rw [dif_neg (show ¬(0 : Fin S2048x512.rank) ∈ tileDot.lhsBatch by decide),
    dif_pos (show (0 : Fin S2048x512.rank) ∈ tileDot.lhsNonContracting by decide)]
  rfl
theorem tileDot_lhs1 (j : S2048x2048.Idx) (q : tileDot.contr.Idx) : (tileDot.lhsIdx j q 1).val = (q ⟨0, by decide⟩).val :=
  tileDot.lhsIdx_val_of_single rfl j q
theorem tileDot_rhs0 (j : S2048x2048.Idx) (q : tileDot.contr.Idx) : (tileDot.rhsIdx j q 0).val = (q ⟨0, by decide⟩).val :=
  tileDot.rhsIdx_val_of_single rfl j q
theorem tileDot_rhs1 (j : S2048x2048.Idx) (q : tileDot.contr.Idx) : (tileDot.rhsIdx j q 1).val = (j 1).val := by
  unfold DotDims.rhsIdx
  rw [dif_neg (show ¬(1 : Fin S512x2048.rank) ∈ tileDot.rhsBatch by decide),
    dif_pos (show (1 : Fin S512x2048.rank) ∈ tileDot.rhsNonContracting by decide)]
  rfl

/-- The tile product at `(p, q)`: the inner product of row `p` of the first tile with row `q` of the second. -/
theorem tileProduct_apply (x0 x1 : Vec Ideal S2048x512 .bf16) (p q : Fin 2048) :
    k0_pay1 (F := Ideal) x0 x1 (ix2 p q) = ∑ k : Fin 512, x0 (ix2 p k) * x1 (ix2 q k) := by
  unfold k0_pay1
  dsimp only
  rw [shapeCast_self, shapeCast_self]
  refine (Ideal.matmul_constant_zero_apply tileDot none x0
    (transpose S512x2048 [1, 0] x1 transposes_S2048x512_p1_0_S512x2048) (ix2 p q)).trans ?_
  rw [← Equiv.sum_comp (contrEquiv1 tileDot 512 rfl rfl).symm]
  refine Finset.sum_congr rfl fun k _ => ?_
  have hk := contrEquiv1_symm_val tileDot 512 rfl rfl k
  have el : tileDot.lhsIdx (ix2 p q) ((contrEquiv1 tileDot 512 rfl rfl).symm k) = ix2 p k := funext fun a => Fin.ext (by
    match a with
    | ⟨0, _⟩ => exact tileDot_lhs0 _ _
    | ⟨1, _⟩ => exact (tileDot_lhs1 _ _).trans hk)
  have er : transpose S512x2048 [1, 0] x1 transposes_S2048x512_p1_0_S512x2048
      (tileDot.rhsIdx (ix2 p q) ((contrEquiv1 tileDot 512 rfl rfl).symm k)) = x1 (ix2 q k) :=
    transpose_apply [1, 0] x1 transposes_S2048x512_p1_0_S512x2048 _ (ix2 q k) (fun b => by
      match b with
      | ⟨0, _⟩ => exact ((tileDot_rhs0 _ _).trans hk).symm
      | ⟨1, _⟩ =>
        show q.val = (tileDot.rhsIdx (ix2 p q) ((contrEquiv1 tileDot 512 rfl rfl).symm k) 1).val
        rw [tileDot_rhs1])
  rw [el, er]

/-- Two counters below 2^32 compare equal as 32-bit words exactly when they are equal. -/
theorem cmpi_eq_ofNat (a b : Nat) (ha : a < 2 ^ 32) (hb : b < 2 ^ 32) :
    IntOp.cmpi .eq (BitVec.ofNat 32 a) (BitVec.ofNat 32 b) = if a = b then 1#1 else 0#1 := by
  unfold IntOp.cmpi
  by_cases h : a = b
  · subst h; simp
  · rw [if_neg h]
    have hne : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    rw [beq_eq_false_iff_ne.mpr hne]
    rfl

/-- The diagonal tile's payload at `(p, q)`: the variance column's entry of row `p` where `p = q`, the tile product elsewhere. -/
theorem diagTile_apply (x0 x1 : Vec Ideal S2048x512 .bf16) (x2 : Vec Ideal S2048x1 .f32) (p q : Fin 2048) :
    k0_pay2 (F := Ideal) x0 x1 x2 (ix2 p q)
      = if p.val = q.val then x2 (ix2 p (0 : Fin 1)) else k0_pay1 (F := Ideal) x0 x1 (ix2 p q) := by
  unfold k0_pay2
  dsimp only
  rw [shapeCast_self, shapeCast_self]
  show Scalar.select (IntOp.cmpi .eq (BitVec.ofNat 32 (0 * 2048 + p.val)) (BitVec.ofNat 32 (0 * 2048 + q.val)))
      (broadcastTo S2048x2048 x2 broadcasts_S2048x1_S2048x2048 (ix2 p q)) (k0_pay1 (F := Ideal) x0 x1 (ix2 p q)) = _
  have hp := p.isLt
  have hq := q.isLt
  rw [cmpi_eq_ofNat _ _ (by omega) (by omega), broadcastTo_a1_ab_apply]
  by_cases h : p.val = q.val
  · rw [if_pos (by omega), if_pos h, select_one]
  · rw [if_neg (by omega), if_neg h, select_zero]

end Cert.KernelIdeal.Tile

end
-- ==== Proof.Blocks.lean ====
/-
  From tiles to the whole covariance array.

  The grid has 4 x 4 points; point t has coordinates (t / 4, t % 4). The scaled copy of x and the variance column are
  read at row tile t / 4, the plain copy of x at row tile t % 4, and the output tile (t / 4, t % 4) is written back at
  every point. A tile is on the diagonal exactly when t / 4 = t % 4, which is the case the body tests; there a local
  position (p, q) of the tile is a diagonal entry of the array exactly when p = q, and off the diagonal tiles no local
  position is. So what each point writes back is the tile of ONE function of the arguments (the specification's
  covariance), and since the sixteen tiles cover the array, the array ends as that function.
-/
import proofs.«161386_j89807766159361_2_alg».proof.Proof.Gen.KernelIdeal.Value
import proofs.«161386_j89807766159361_2_alg».proof.Proof.Pieces
import proofs.«161386_j89807766159361_2_alg».proof.Proof.Payload
import proofs.«161386_j89807766159361_2_alg».proof.Proof.Spec
import Idealize.ShloMosaic.Lib.Pipeline.Value
import Idealize.ShloMosaic.Lib.ValueIdx

noncomputable section

open Idealize.ShloMosaic Idealize.ShloMosaic.TcCoe Idealize.ShloMosaic.ValueIdx Idealize.SL.Sem
open Idealize.ShloMosaic.Pipeline (Dat)

namespace Cert.KernelIdeal.Tile

open Cert.KernelIdeal Cert.KernelIdeal.Gen
open scoped BigOperators

variable (m : (ℓ : Loc nD τ sig) → Buf (Elt Ideal) ℓ) (ρ : Dev nD → PrngReg)

/-- The printed index maps over the grid: point `t` reads row tile `t / 4` of the scaled copy and of the variance
    column, row tile `t % 4` of the plain copy, and writes output tile `(t / 4, t % 4)`. -/
theorem idx_facts : ∀ t : Fin cfg0.N,
    win0_0.index t (0 : Fin 2) = t.val / 4 ∧ win0_0.index t (1 : Fin 2) = 0
    ∧ win0_1.index t (0 : Fin 2) = t.val % 4 ∧ win0_1.index t (1 : Fin 2) = 0
    ∧ win0_2.index t (0 : Fin 2) = t.val / 4 ∧ win0_2.index t (1 : Fin 2) = 0
    ∧ win0_3.index t (0 : Fin 2) = t.val / 4 ∧ win0_3.index t (1 : Fin 2) = t.val % 4 :=
  (by decide +kernel : ∀ t : Fin grid0.N, _)

/-- Row `p` of row tile `b`, as a row of the array. -/
def rowOf (b : Nat) (hb : b < 4) (p : Fin 2048) : Fin 8192 := ⟨b * 2048 + p.val, by have := p.isLt; omega⟩

theorem rowOf_val (b : Nat) (hb : b < 4) (p : Fin 2048) : (rowOf b hb p).val = b * 2048 + p.val := rfl

/-- On a diagonal tile two local rows give the same array row exactly when they are the same local row. -/
theorem rows_eq_of_diag (b b' : Nat) (hb : b < 4) (hb' : b' < 4) (p q : Fin 2048) (hd : b = b') (hpq : p.val = q.val) :
    (rowOf b hb p).val = (rowOf b' hb' q).val := by rw [rowOf_val, rowOf_val, hd, hpq]
theorem rows_ne_of_diag (b b' : Nat) (hb : b < 4) (hb' : b' < 4) (p q : Fin 2048) (hd : b = b') (hpq : ¬p.val = q.val) :
    ¬(rowOf b hb p).val = (rowOf b' hb' q).val := by rw [rowOf_val, rowOf_val, hd]; omega
/-- Off the diagonal tiles no two local rows give the same array row. -/
theorem rows_ne_of_off (b b' : Nat) (hb : b < 4) (hb' : b' < 4) (p q : Fin 2048) (hd : ¬b = b') :
    ¬(rowOf b hb p).val = (rowOf b' hb' q).val := by
  rw [rowOf_val, rowOf_val]; have := p.isLt; have := q.isLt; omega

theorem lt16 (t : Fin cfg0.N) : t.val < 16 := lt_of_lt_of_eq t.isLt N_0
theorem div_lt (t : Fin cfg0.N) : t.val / 4 < 4 := by have := lt16 t; omega
theorem mod_lt (t : Fin cfg0.N) : t.val % 4 < 4 := by omega

/-- The scaled copy's tile at point `t`, read at `(p, k)`, is the array at row `p` of row tile `t / 4`. -/
theorem iblk0_apply (c : Dev nD) (t : Fin cfg0.N) (p : Fin 2048) (k : Fin 512) :
    (iblk m c 0 t : Vec Ideal S2048x512 .bf16) (ix2 p k)
      = (V m c main_v15 : FVec Ideal S8192x512 .bf16) (ix2 (rowOf (t.val / 4) (div_lt t) p) k) := by
  show V m c main_v15 (((cfg0.win 0).blk t).view.emb (ix2 p k)) = _
  refine congrArg (V m c main_v15) (funext fun a => Fin.ext ?_)
  obtain ⟨e00, e01, -⟩ := idx_facts t
  match a with
  | ⟨0, _⟩ => show win0_0.index t (0 : Fin 2) * 2048 + 1 * p.val = t.val / 4 * 2048 + p.val; rw [e00]; omega
  | ⟨1, _⟩ => show win0_0.index t (1 : Fin 2) * 512 + 1 * k.val = k.val; rw [e01]; omega

/-- The plain copy's tile at point `t`, read at `(q, k)`, is the array at row `q` of row tile `t % 4`. -/
theorem iblk1_apply (c : Dev nD) (t : Fin cfg0.N) (q : Fin 2048) (k : Fin 512) :
    (iblk m c 1 t : Vec Ideal S2048x512 .bf16) (ix2 q k)
      = (V m c main_v16 : FVec Ideal S8192x512 .bf16) (ix2 (rowOf (t.val % 4) (mod_lt t) q) k) := by
  show V m c main_v16 (((cfg0.win 1).blk t).view.emb (ix2 q k)) = _
  refine congrArg (V m c main_v16) (funext fun a => Fin.ext ?_)
  obtain ⟨-, -, e10, e11, -⟩ := idx_facts t
  match a with
  | ⟨0, _⟩ => show win0_1.index t (0 : Fin 2) * 2048 + 1 * q.val = t.val % 4 * 2048 + q.val; rw [e10]; omega
  | ⟨1, _⟩ => show win0_1.index t (1 : Fin 2) * 512 + 1 * k.val = k.val; rw [e11]; omega

/-- The variance column's tile at point `t`, read at `(p, 0)`, is the column at row `p` of row tile `t / 4`. -/
theorem iblk2_apply (c : Dev nD) (t : Fin cfg0.N) (p : Fin 2048) :
    (iblk m c 2 t : Vec Ideal S2048x1 .f32) (ix2 p (0 : Fin 1))
      = (V m c main_v11 : FVec Ideal S8192x1 .f32) (ix2 (rowOf (t.val / 4) (div_lt t) p) (0 : Fin 1)) := by
  show V m c main_v11 (((cfg0.win 2).blk t).view.emb (ix2 p (0 : Fin 1))) = _
  refine congrArg (V m c main_v11) (funext fun a => Fin.ext ?_)
  obtain ⟨-, -, -, -, e20, e21, -⟩ := idx_facts t
  match a with
  | ⟨0, _⟩ => show win0_2.index t (0 : Fin 2) * 2048 + 1 * p.val = t.val / 4 * 2048 + p.val; rw [e20]; omega
  | ⟨1, _⟩ => show win0_2.index t (1 : Fin 2) * 1 + 1 * 0 = 0; rw [e21]

/-- Local position `(p, q)` of output tile `t` is array position (row `p` of tile `t / 4`, row `q` of tile `t % 4`). -/
theorem emb3 (t : Fin cfg0.N) (p q : Fin 2048) :
    ((cfg0.win 3).blk t).view.emb (ix2 p q) = ix2 (rowOf (t.val / 4) (div_lt t) p) (rowOf (t.val % 4) (mod_lt t) q) := by
  refine funext fun a => Fin.ext ?_
  obtain ⟨-, -, -, -, -, -, e30, e31⟩ := idx_facts t
  match a with
  | ⟨0, _⟩ => show win0_3.index t (0 : Fin 2) * 2048 + 1 * p.val = t.val / 4 * 2048 + p.val; rw [e30]; omega
  | ⟨1, _⟩ => show win0_3.index t (1 : Fin 2) * 2048 + 1 * q.val = t.val % 4 * 2048 + q.val; rw [e31]; omega

/-! ## What the host prefix leaves in the windows' arrays, as hypotheses of the tile argument -/

/-- The argument arrays on core `c`. -/
abbrev argX (c : Dev nD) : FVec Ideal S8192x512 .f32 := m ((c : Thread nD τ).loc main_arg0)
abbrev argMuW (c : Dev nD) : FVec Ideal S512x1 .f32 := m ((c : Thread nD τ).loc main_arg1)
abbrev argRho (c : Dev nD) : FVec Ideal S1 .f32 := m ((c : Thread nD τ).loc main_arg2)
abbrev argVarW (c : Dev nD) : FVec Ideal S512x1 .f32 := m ((c : Thread nD τ).loc main_arg3)
abbrev argMuB (c : Dev nD) : FVec Ideal S1 .f32 := m ((c : Thread nD τ).loc main_arg4)
abbrev argVarB (c : Dev nD) : FVec Ideal S1 .f32 := m ((c : Thread nD τ).loc main_arg5)

/-- What the operations before the tiled region leave: the scaled copy of `x`, the plain copy, the variance column,
    and the mean column (which is already the first result). -/
structure HostReads (c : Dev nD) : Prop where
  scaled : ∀ (r : Fin 8192) (k : Fin 512),
    (V m c main_v15 : FVec Ideal S8192x512 .bf16) (ix2 r k) = argX m c (ix2 r k) * argRho m c (ix1 (0 : Fin 1))
  plain : ∀ (r : Fin 8192) (k : Fin 512), (V m c main_v16 : FVec Ideal S8192x512 .bf16) (ix2 r k) = argX m c (ix2 r k)
  var : ∀ r : Fin 8192,
    (V m c main_v11 : FVec Ideal S8192x1 .f32) (ix2 r (0 : Fin 1)) = Cert.CovSpec.diag (argX m c) (argVarW m c) (argVarB m c) r
  mean : (V m c main_v6 : FVec Ideal S8192x1 .f32) = Cert.CovSpec.mean (argX m c) (argMuW m c) (argMuB m c)

/-- The specification's covariance at a position given by its two rows. -/
theorem cov_apply (x : FVec Ideal Cert.CovSpec.SX .f32) (rho : FVec Ideal Cert.CovSpec.SB .f32) (w : FVec Ideal Cert.CovSpec.SW .f32)
    (b : FVec Ideal Cert.CovSpec.SB .f32) (r s : Fin 8192) :
    Cert.CovSpec.cov x rho w b (ix2 r s) = if r.val = s.val then Cert.CovSpec.diag x w b r else Cert.CovSpec.gram x rho r s := rfl

/-- The tile product of the two input tiles at point `t` is the specification's scaled Gram entry of the two array rows. -/
theorem tile_gram (c : Dev nD) (H : HostReads m c) (t : Fin cfg0.N) (p q : Fin 2048) :
    k0_pay1 (F := Ideal) (iblk m c 0 t) (iblk m c 1 t) (ix2 p q)
      = Cert.CovSpec.gram (argX m c) (argRho m c) (rowOf (t.val / 4) (div_lt t) p) (rowOf (t.val % 4) (mod_lt t) q) := by
  refine (tileProduct_apply (iblk m c 0 t) (iblk m c 1 t) p q).trans ?_
  unfold Cert.CovSpec.gram
  refine Finset.sum_congr rfl fun k _ => ?_
  rw [iblk0_apply, iblk1_apply, H.scaled, H.plain]

/-- WHAT POINT `t` WRITES BACK is tile `t` of the specification's covariance of the arguments. -/
theorem flushed_eq (c : Dev nD) (H : HostReads m c) (t : Fin cfg0.N) :
    (dats m 0 c).flushed 3 t
      = ((cfg0.win 3).blk t).view.read (Elt Ideal) (Cert.CovSpec.cov (argX m c) (argRho m c) (argVarW m c) (argVarB m c)) := by
  have hN := lt16 t
  by_cases h0 : t.val % 5 = 0
  · rw [Cert.KernelIdeal.Value.flushed3_A m c t h0, out_diag]
    funext j
    obtain ⟨p, q, rfl⟩ : ∃ (p q : Fin 2048), j = ix2 p q := ⟨j 0, j 1, eq_ix2 j⟩
    show k0_pay2 (F := Ideal) (iblk m c 0 t) (iblk m c 1 t) (iblk m c 2 t) (ix2 p q)
        = Cert.CovSpec.cov _ _ _ _ (((cfg0.win 3).blk t).view.emb (ix2 p q))
    rw [emb3 t p q, cov_apply]
    refine (diagTile_apply (iblk m c 0 t) (iblk m c 1 t) (iblk m c 2 t) p q).trans ?_
    have hd : t.val / 4 = t.val % 4 := by omega
    by_cases hpq : p.val = q.val
    · rw [if_pos hpq, if_pos (rows_eq_of_diag _ _ (div_lt t) (mod_lt t) p q hd hpq), iblk2_apply, H.var]
    · rw [if_neg hpq, if_neg (rows_ne_of_diag _ _ (div_lt t) (mod_lt t) p q hd hpq)]
      exact tile_gram m c H t p q
  · rw [Cert.KernelIdeal.Value.flushed3_B m c t h0, out_off]
    funext j
    obtain ⟨p, q, rfl⟩ : ∃ (p q : Fin 2048), j = ix2 p q := ⟨j 0, j 1, eq_ix2 j⟩
    show k0_pay1 (F := Ideal) (iblk m c 0 t) (iblk m c 1 t) (ix2 p q)
        = Cert.CovSpec.cov _ _ _ _ (((cfg0.win 3).blk t).view.emb (ix2 p q))
    have hd : ¬t.val / 4 = t.val % 4 := by omega
    rw [emb3 t p q, cov_apply, if_neg (rows_ne_of_off _ _ (div_lt t) (mod_lt t) p q hd)]
    exact tile_gram m c H t p q

/-- An array position is in point `t`'s tile iff each coordinate is in the tile's range on its axis. -/
theorem mem_blk (t : Fin cfg0.N) (i : S8192x8192.Idx) :
    i ∈ ((cfg0.win 3).blk t).view.set ↔ ∀ a : Fin 2, win0_3.index t a * S2048x2048.size a ≤ (i a).val
      ∧ (i a).val < win0_3.index t a * S2048x2048.size a + S2048x2048.size a := by
  show i ∈ ((View.whole main_v17).slice (win0_3.rect t)).set ↔ _
  rw [View.set_slice_whole, Rect.mem_set_unit]
  exact Iff.rfl

/-- Every array position is in some point's tile: the point with coordinates (row / 2048, column / 2048). -/
theorem cover (i : S8192x8192.Idx) : ∃ t : Fin cfg0.N, (cfg0.win 3).flush t = true ∧ i ∈ ((cfg0.win 3).blk t).view.set := by
  have hi0 : (i 0).val < 8192 := (i 0).isLt
  have hi1 : (i 1).val < 8192 := (i 1).isLt
  refine ⟨⟨4 * ((i 0).val / 2048) + (i 1).val / 2048, by rw [show cfg0.N = 16 from N_0]; omega⟩, flush0_3 _, ?_⟩
  rw [mem_blk]
  obtain ⟨-, -, -, -, -, -, e30, e31⟩ := idx_facts ⟨4 * ((i 0).val / 2048) + (i 1).val / 2048, by rw [show cfg0.N = 16 from N_0]; omega⟩
  intro a
  match a with
  | ⟨0, _⟩ =>
    show win0_3.index _ (0 : Fin 2) * 2048 ≤ (i 0).val ∧ (i 0).val < win0_3.index _ (0 : Fin 2) * 2048 + 2048
    rw [e30]; dsimp only; omega
  | ⟨1, _⟩ =>
    show win0_3.index _ (1 : Fin 2) * 2048 ≤ (i 1).val ∧ (i 1).val < win0_3.index _ (1 : Fin 2) * 2048 + 2048
    rw [e31]; dsimp only; omega

/-- THE ARRAY after the run is the specification's covariance of the arguments. -/
theorem final (c : Dev nD) (H : HostReads m c) :
    (dats m 0 c).arrAt 3 cfg0.N = Cert.CovSpec.cov (argX m c) (argRho m c) (argVarW m c) (argVarB m c) :=
  (dats m 0 c).arrAt_eq_of_cover 3 _ (fun t _ => flushed_eq m c H t) cover

/-- The kernel program's run, read: the mean column and the covariance array at the specification's functions of the
    arguments, the arguments unchanged. -/
theorem run (H : ∀ c, HostReads m c) :
    θ_run defs (onTc (τ := τ) (main (F := Ideal))) ⟨m, fun _ => 0, ρ⟩ fun r => ∀ c : Dev nD,
      r.2.mem ((c : Thread nD τ).loc main_v6) = Cert.CovSpec.mean (argX m c) (argMuW m c) (argMuB m c)
      ∧ r.2.mem ((c : Thread nD τ).loc main_v17) = Cert.CovSpec.cov (argX m c) (argRho m c) (argVarW m c) (argVarB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c =>
      ⟨((h c).2 main_v6 (Pipeline.mem_restRefs_of main_v6 (by decide) (by decide))).trans (H c).mean,
        (Cert.KernelIdeal.Value.post3 m r h c).trans (final m c (H c)),
        Cert.KernelIdeal.Value.kept_main_arg0 m r h c,
        Cert.KernelIdeal.Value.kept_main_arg1 m r h c,
        Cert.KernelIdeal.Value.kept_main_arg2 m r h c,
        Cert.KernelIdeal.Value.kept_main_arg3 m r h c,
        Cert.KernelIdeal.Value.kept_main_arg4 m r h c,
        Cert.KernelIdeal.Value.kept_main_arg5 m r h c⟩)
    (run_main m ρ)

end Cert.KernelIdeal.Tile

end
-- ==== Proof.RefMean.lean ====
/-
  The reference's first result is the specification's mean column: at row r it is the inner product of row r of x
  with the mean weight column, plus the bias broadcast to every row.
-/
import proofs.«161386_j89807766159361_2_alg».proof.Proof.Gen.ReferenceIdeal.Read
import proofs.«161386_j89807766159361_2_alg».proof.Proof.Spec

noncomputable section

open Idealize.ShloMosaic Idealize.ShloMosaic.ValueIdx

namespace Cert.RefMean

open Cert.ReferenceIdeal Cert.ReferenceIdeal.Read
open scoped BigOperators

/-- The reference's mean head, as a function of its arguments, is the specification's. -/
theorem val_main_v3_eq_mean (x0 : FVec Ideal S8192x512 .f32) (x1 : FVec Ideal S512x1 .f32) (x4 : FVec Ideal S1 .f32) :
    val_main_v3 (F := Ideal) x0 x1 x4 = Cert.CovSpec.mean x0 x1 x4 := by
  funext i
  obtain ⟨r, z, rfl⟩ : ∃ (r : Fin 8192) (z : Fin 1), i = ix2 r z := ⟨i 0, i 1, eq_ix2 i⟩
  rw [val_main_v3_apply, val_main_v0_apply, val_main_v2_apply, val_main_v1_apply]
  have e1 : ∀ k : Fin 512, lidx_main_v0 (ix2 r z) k = ix2 r k := fun k => funext fun a => Fin.ext (by
    match a with
    | ⟨0, _⟩ => rfl
    | ⟨1, _⟩ => rfl)
  have e2 : ∀ k : Fin 512, ridx_main_v0 (ix2 r z) k = ix2 k (0 : Fin 1) := fun k => funext fun a => Fin.ext (by
    match a with
    | ⟨0, _⟩ => rfl
    | ⟨1, _⟩ => show z.val = 0; have := z.isLt; omega)
  have e3 : idx_main_v1 (idx_main_v2 (ix2 r z)) = ix1 (0 : Fin 1) := funext fun a => by
    match a with
    | ⟨0, _⟩ => rfl
  simp only [e1, e2, e3]
  rfl

end Cert.RefMean

end
-- ==== Proof.LibScatterSet.lean ====
/-
  Reading a replacing scatter at an index.

  A scatter whose body returns the update (`x.at[idx].set(upd)`) is a left fold, over the update indices in
  row-major order, of the step "overwrite the element the update lands on, when it lands inside".  When
  every update lands inside and no two updates land on the same element, the order of the fold does not
  matter: an element some update lands on holds that update, every other element holds the operand's.
  The two facts are first proved for a fold of such overwriting steps over an arbitrary list, then
  specialised to the row-major list of update indices.
-/
import Idealize.ShloMosaic.PureOps.ShapeOps

namespace Idealize.ShloMosaic.ScatterSet

section Fold
variable {ι β α : Type} [DecidableEq β]

/-- One overwriting step: item `n` lands on `land n` (or nowhere) and carries the value `val n`; the
    step replaces the element it lands on and keeps every other element. -/
def step (land : ι → Option β) (val : ι → α) (r : β → α) (n : ι) : β → α :=
  match land n with
  | some i => fun i' => if i' = i then val n else r i'
  | none => r

/-- A step whose item does not land on `i` keeps the element at `i`. -/
theorem step_of_ne (land : ι → Option β) (val : ι → α) (r : β → α) (n : ι) (i : β) (h : land n ≠ some i) :
    step land val r n i = r i := by
  unfold step
  cases hn : land n with
  | none => rfl
  | some k =>
    have hik : i ≠ k := fun e => h (by rw [hn, e])
    exact if_neg hik

/-- A step whose item lands on `i` leaves the item's value at `i`. -/
theorem step_of_eq (land : ι → Option β) (val : ι → α) (r : β → α) (n : ι) (i : β) (h : land n = some i) :
    step land val r n i = val n := by
  unfold step
  rw [h]
  exact if_pos rfl

/-- If no item of the list lands on `i`, folding the steps over the list keeps the element at `i`. -/
theorem foldl_step_miss (land : ι → Option β) (val : ι → α) (i : β) :
    ∀ (l : List ι) (r : β → α), (∀ n ∈ l, land n ≠ some i) → l.foldl (step land val) r i = r i
  | [], _, _ => rfl
  | n :: l, r, h => by
    rw [List.foldl_cons, foldl_step_miss land val i l _ fun m hm => h m (List.mem_cons_of_mem _ hm)]
    exact step_of_ne land val r n i (h n List.mem_cons_self)

/-- If the list has no repeated item, `n0` is in it and lands on `i`, and no other item of the list lands on
    `i`, then after folding the steps over the list the element at `i` is the value `n0` carries. -/
theorem foldl_step_hit (land : ι → Option β) (val : ι → α) (i : β) (n0 : ι) (h0 : land n0 = some i) :
    ∀ (l : List ι) (r : β → α), l.Nodup → n0 ∈ l → (∀ n ∈ l, land n = some i → n = n0) →
      l.foldl (step land val) r i = val n0
  | [], _, _, hm, _ => absurd hm List.not_mem_nil
  | n :: l, r, hnd, hm, huniq => by
    rw [List.foldl_cons]
    have hnd' := List.nodup_cons.1 hnd
    by_cases hn : n = n0
    · subst hn
      rw [foldl_step_miss land val i l _ fun m hml e => hnd'.1 (huniq m (List.mem_cons_of_mem _ hml) e ▸ hml)]
      exact step_of_eq land val r n i h0
    · have hm' : n0 ∈ l := by
        rcases List.mem_cons.1 hm with e | e
        · exact absurd e.symm hn
        · exact e
      exact foldl_step_hit land val i n0 h0 l _ hnd'.2 hm' fun m hml => huniq m (List.mem_cons_of_mem _ hml)

end Fold

section Scatter
variable {s si u : Shape} {α : Type} {w : Nat}

/-- The replacing scatter is the fold of overwriting steps over the update indices in row-major order,
    item `n` landing where `resultIdx?` sends the `n`-th update index and carrying that update. -/
theorem scatter_set_eq_foldl (d : ScatterDims s si u) (x : s.Idx → α) (idx : IVec si w) (upd : u.Idx → α) :
    Host.scatter d (fun _ b => b) x idx upd =
      (List.finRange u.numel).foldl
        (step (fun n => d.resultIdx? (u.rowMajor.symm n) idx) (fun n => upd (u.rowMajor.symm n))) x := by
  unfold Host.scatter
  refine congrArg (fun f => List.foldl f x (List.finRange u.numel)) ?_
  funext r n
  unfold step
  beta_reduce
  generalize d.resultIdx? (u.rowMajor.symm n) idx = o
  cases o <;> rfl

/-- An element no update lands on keeps the operand's value. -/
theorem scatter_set_of_forall_ne (d : ScatterDims s si u) (x : s.Idx → α) (idx : IVec si w) (upd : u.Idx → α)
    (i : s.Idx) (h : ∀ j, d.resultIdx? j idx ≠ some i) : Host.scatter d (fun _ b => b) x idx upd i = x i := by
  rw [scatter_set_eq_foldl]
  exact foldl_step_miss _ _ i _ x fun n _ => h _

/-- When update index `j` lands on `i` and is the only update index that does, the element at `i` is
    the update at `j`. -/
theorem scatter_set_of_unique (d : ScatterDims s si u) (x : s.Idx → α) (idx : IVec si w) (upd : u.Idx → α)
    (i : s.Idx) (j : u.Idx) (hj : d.resultIdx? j idx = some i) (huniq : ∀ j', d.resultIdx? j' idx = some i → j' = j) :
    Host.scatter d (fun _ b => b) x idx upd i = upd j := by
  rw [scatter_set_eq_foldl]
  have e := foldl_step_hit (fun n => d.resultIdx? (u.rowMajor.symm n) idx) (fun n => upd (u.rowMajor.symm n)) i
    (u.rowMajor j) (by simpa using hj) (List.finRange u.numel) x (List.nodup_finRange _) (List.mem_finRange _)
    (fun n _ hn => by
      have := huniq _ hn
      rw [← this]; simp)
  simpa using e

/-- Every update lands inside, update index `j` on `g j`, and `g` is injective: the element at `g j` is
    the update at `j`. -/
theorem scatter_set_hit (d : ScatterDims s si u) (x : s.Idx → α) (idx : IVec si w) (upd : u.Idx → α)
    (g : u.Idx → s.Idx) (hg : ∀ j, d.resultIdx? j idx = some (g j)) (hinj : Function.Injective g) (j : u.Idx) :
    Host.scatter d (fun _ b => b) x idx upd (g j) = upd j :=
  scatter_set_of_unique d x idx upd (g j) j (hg j) fun j' hj' => hinj (Option.some.inj ((hg j').symm.trans hj'))

/-- Every update lands inside, update index `j` on `g j`: an element that is no `g j` keeps the
    operand's value. -/
theorem scatter_set_miss (d : ScatterDims s si u) (x : s.Idx → α) (idx : IVec si w) (upd : u.Idx → α)
    (g : u.Idx → s.Idx) (hg : ∀ j, d.resultIdx? j idx = some (g j)) (i : s.Idx) (hi : ∀ j, g j ≠ i) :
    Host.scatter d (fun _ b => b) x idx upd i = x i :=
  scatter_set_of_forall_ne d x idx upd i fun j e => hi j (Option.some.inj ((hg j).symm.trans e))

end Scatter

end Idealize.ShloMosaic.ScatterSet
-- ==== Proof.RefCov.lean ====
/-
  The reference's covariance result, read at an index.

  The reference builds the scaled Gram matrix  G[r,c] = sum over k of (x[r,k] * rho[0]) * x[c,k]  and then writes,
  by a replacing scatter, the vector  d[r] = log1p (exp (head of row r)) + eps  onto the positions named by an
  8192 x 2 table of indices.  Row n of that table is (n, n): each column is the row number, wrapped by "add 8192
  where negative", and a row number below 8192 is never negative as a signed 32-bit word, so the wrap changes
  nothing.  Hence update n lands on the diagonal element (n, n), all updates land inside, and no two land on the
  same element.  A replacing scatter with these properties leaves update n at (n, n) and the operand's element
  everywhere else; the diagonal element is then the specification's `diag`, every other element its `gram`.
-/
import proofs.«161386_j89807766159361_2_alg».proof.Proof.Gen.ReferenceIdeal.Read
import proofs.«161386_j89807766159361_2_alg».proof.Proof.Spec
import proofs.«161386_j89807766159361_2_alg».proof.Proof.LibScatterSet

noncomputable section

namespace Cert.RefCov

open Cert.ReferenceIdeal Cert.ReferenceIdeal.Gen Cert.ReferenceIdeal.Read Idealize.ShloMosaic Idealize.ShloMosaic.ValueIdx
open scoped BigOperators

/-! ### Words below 8192 -/

/-- A number below 8192, as a 32-bit word, reads back signed as itself. -/
theorem toInt_ofNat_of_lt (k : Nat) (hk : k < 8192) : (BitVec.ofNat 32 k).toInt = (k : Int) := by
  unfold BitVec.toInt
  rw [BitVec.toNat_ofNat]
  have e : k % 2 ^ 32 = k := Nat.mod_eq_of_lt (by omega)
  rw [e, if_pos (by omega)]

/-- A number below 8192, as a 32-bit word, is not negative. -/
theorem slt_zero_of_lt (k : Nat) (hk : k < 8192) : (BitVec.ofNat 32 k).slt 0#32 = false := by
  unfold BitVec.slt
  rw [toInt_ofNat_of_lt k hk]
  simp

/-- The wrapped index of position `i`: the position itself, because it is not negative. -/
theorem wrap_eq (a : BitVec 32) (k : Nat) (hk : k < 8192) :
    Scalar.select (IntOp.cmpi .slt (BitVec.ofNat 32 k) 0#32) a (BitVec.ofNat 32 k) = BitVec.ofNat 32 k := by
  unfold Scalar.select IntOp.cmpi
  simp only [slt_zero_of_lt k hk]
  exact if_neg (by decide)

/-- The first column of scatter indices: the row number as a word. -/
theorem val_main_v23_eq (i : S8192.Idx) : val_main_v23 (F := Ideal) i = BitVec.ofNat 32 (i 0).val := by
  rw [val_main_v23_apply, val_main_v20_apply, val_main_v18_apply, val_main_v19_apply, val_main_c_apply]
  exact wrap_eq _ _ (i 0).isLt

/-- The second column of scatter indices: the row number as a word. -/
theorem val_main_v28_eq (i : S8192.Idx) : val_main_v28 (F := Ideal) i = BitVec.ofNat 32 (i 0).val := by
  rw [val_main_v28_apply, val_main_v25_apply, val_main_v18_apply, val_main_v24_apply, val_main_c_1_apply]
  exact wrap_eq _ _ (i 0).isLt

/-- Every scatter index vector is (row, row): both components at row `n` are the word of `n`. -/
theorem val_main_v31_eq (i : S8192x2.Idx) : val_main_v31 (F := Ideal) i = BitVec.ofNat 32 (i 0).val := by
  unfold val_main_v31
  by_cases h : (i 1).val = 0
  · rw [concatenate_pair_apply_left (t := S8192x2) (s₁ := S8192x1) (s₂ := S8192x1) (1 : Fin S8192x2.rank) _ _ _ i rfl (ix2 (i 0) (⟨0, Nat.one_pos⟩ : Fin 1) : S8192x1.Idx)
      (fun b => match b with | ⟨0, _⟩ => rfl | ⟨1, _⟩ => h.symm)]
    rw [val_main_v29_apply, val_main_v23_eq]
  · have h1 : (i 1).val = 1 := by have := idx2_lt1 i; omega
    rw [concatenate_pair_apply_right (t := S8192x2) (s₁ := S8192x1) (s₂ := S8192x1) (1 : Fin S8192x2.rank) _ _ _ i rfl rfl (ix2 (i 0) (⟨0, Nat.one_pos⟩ : Fin 1) : S8192x1.Idx)
      (fun b => match b with | ⟨0, _⟩ => fun _ => rfl | ⟨1, _⟩ => fun hb => absurd rfl hb)
      (by show 0 + 1 = (i 1).val; omega)]
    rw [val_main_v30_apply, val_main_v28_eq]

/-! ### Where the updates land -/

section Landing
variable (idx : IVec S8192x2 32) (hidx : ∀ i : S8192x2.Idx, idx i = BitVec.ofNat 32 (i 0).val)

/-- The scatter-indices position at which update `j` reads a component of its start index has `j`'s
    coordinate on the row axis. -/
theorem siIdx_row (j : S8192.Idx) (c : Fin scatter_S8192x8192_S8192x2_S8192_n_01_01_1.scatterDimsToOperandDims.length) :
    ((scatter_S8192x8192_S8192x2_S8192_n_01_01_1.siIdx j c) 0).val = (j 0).val := by
  unfold ScatterDims.siIdx
  rw [dif_neg (by decide)]
  unfold ScatterDims.siCoord
  show (j _).val = (j 0).val
  exact congrArg (fun q => (j q).val) (Subsingleton.elim (α := Fin 1) _ _)

include hidx in
/-- The window of update `j` starts at `j`'s row number on both axes. -/
theorem start_eq (j : S8192.Idx) (a : Fin S8192x8192.rank) :
    scatter_S8192x8192_S8192x2_S8192_n_01_01_1.start j idx a = ((j 0).val : Int) := by
  unfold ScatterDims.start
  have hmem : ∀ a : Fin S8192x8192.rank, a ∈ scatter_S8192x8192_S8192x2_S8192_n_01_01_1.scatterDimsToOperandDims := by decide
  rw [dif_pos (hmem a)]
  rw [hidx, siIdx_row, toInt_ofNat_of_lt _ (j 0).isLt]

/-- Both operand axes are inserted window axes: the window coordinate is zero. -/
theorem window_eq (j : S8192.Idx) (a : Fin S8192x8192.rank) :
    scatter_S8192x8192_S8192x2_S8192_n_01_01_1.window j a = 0 := by
  unfold ScatterDims.window
  have hmem : ∀ a : Fin S8192x8192.rank, ¬ a ∈ scatter_S8192x8192_S8192x2_S8192_n_01_01_1.sKept := by decide
  rw [dif_neg (hmem a)]

include hidx in
/-- Update `j` lands on the diagonal element of its row. -/
theorem resultIdx_eq (j : S8192.Idx) :
    scatter_S8192x8192_S8192x2_S8192_n_01_01_1.resultIdx? j idx = some (ix2 (j 0) (j 0)) := by
  have hs : ∀ a, scatter_S8192x8192_S8192x2_S8192_n_01_01_1.start j idx a
      + scatter_S8192x8192_S8192x2_S8192_n_01_01_1.window j a = ((j 0).val : Int) := fun a => by
    rw [start_eq idx hidx, window_eq]; simp
  have hj : (j 0).val < 8192 := (j 0).isLt
  unfold ScatterDims.resultIdx?
  rw [dif_pos (fun a => by
    rw [hs a]
    refine ⟨by omega, ?_⟩
    match a with
    | ⟨0, _⟩ => show ((j 0).val : Int) < 8192; omega
    | ⟨1, _⟩ => show ((j 0).val : Int) < 8192; omega)]
  refine congrArg some (funext fun a => Fin.ext ?_)
  show (scatter_S8192x8192_S8192x2_S8192_n_01_01_1.start j idx a
      + scatter_S8192x8192_S8192x2_S8192_n_01_01_1.window j a).toNat = _
  rw [hs a]
  match a with
  | ⟨0, _⟩ => exact Int.toNat_natCast _
  | ⟨1, _⟩ => exact Int.toNat_natCast _

end Landing

/-- Distinct rows have distinct diagonal elements. -/
theorem diag_injective : Function.Injective fun j : S8192.Idx => (ix2 (j 0) (j 0) : S8192x8192.Idx) := by
  intro j j' h
  have h0 : j 0 = j' 0 := congrFun h 0
  rw [eq_ix1 j, eq_ix1 j', h0]

/-! ### The two kinds of element -/

/-- The update of row `r`: the softplus of the variance head, plus the literal. -/
theorem val_main_v12_eq (x0 : (⟨S8192x512, .f32⟩ : BufTy).Contents (Elt Ideal)) (x3 : (⟨S512x1, .f32⟩ : BufTy).Contents (Elt Ideal))
    (x5 : (⟨S1, .f32⟩ : BufTy).Contents (Elt Ideal)) (r : Fin 8192) :
    val_main_v12 (F := Ideal) x0 x3 x5 (ix1 r) = Cert.CovSpec.diag x0 x3 x5 r := by
  rw [val_main_v12_apply, val_main_v10_apply, val_main_v9_apply, val_main_v8_apply, val_main_v7_apply, val_main_v4_apply,
    val_main_v6_apply, val_main_v5_apply, val_main_v11_apply, val_main_cst_apply]
  have e1 : ∀ k : Fin 512, lidx_main_v4 (idx_main_v10 (ix1 r)) k = ix2 r k := fun k => funext fun a => Fin.ext (by
    match a with
    | ⟨0, _⟩ => exact Nat.div_one _
    | ⟨1, _⟩ => rfl)
  have e2 : ∀ k : Fin 512, ridx_main_v4 (idx_main_v10 (ix1 r)) k = ix2 k (0 : Fin 1) := fun k => funext fun a => Fin.ext (by
    match a with
    | ⟨0, _⟩ => rfl
    | ⟨1, _⟩ => rfl)
  have e3 : idx_main_v5 (idx_main_v6 (idx_main_v10 (ix1 r))) = ix1 (0 : Fin 1) := funext fun a => Fin.ext (by
    match a with
    | ⟨0, _⟩ => rfl)
  simp only [e1, e2, e3]
  rfl

/-- The scale, reshaped to a scalar, is the scale's one element. -/
theorem val_main_v13_eq (x2 : (⟨S1, .f32⟩ : BufTy).Contents (Elt Ideal)) (j : S_.Idx) :
    val_main_v13 (F := Ideal) x2 j = x2 (ix1 (0 : Fin 1)) := by
  unfold val_main_v13 shapeCast
  exact congrArg x2 ((eq_ix1 _).trans (congrArg ix1 (Subsingleton.elim _ _)))

/-- The operand's element at row `r`, column `c`: the scaled Gram entry. -/
theorem val_main_v17_eq (x0 : (⟨S8192x512, .f32⟩ : BufTy).Contents (Elt Ideal)) (x2 : (⟨S1, .f32⟩ : BufTy).Contents (Elt Ideal))
    (r c : Fin 8192) : val_main_v17 (F := Ideal) x0 x2 (ix2 r c) = Cert.CovSpec.gram x0 x2 r c := by
  rw [val_main_v17_apply]
  unfold Cert.CovSpec.gram
  refine Finset.sum_congr rfl fun k _ => ?_
  rw [val_main_v15_apply, val_main_v14_apply, val_main_v13_eq, val_main_v16_apply]
  have e1 : lidx_main_v17 (ix2 r c) k = ix2 r k := funext fun a => Fin.ext (by
    match a with
    | ⟨0, _⟩ => rfl
    | ⟨1, _⟩ => rfl)
  have e2 : idx_main_v16 (ridx_main_v17 (ix2 r c) k) = ix2 c k := funext fun a => Fin.ext (by
    match a with
    | ⟨0, _⟩ => rfl
    | ⟨1, _⟩ => rfl)
  rw [e1, e2]
  rfl

/-! ### The covariance result -/

/-- The reference's covariance result is the specification's: on the diagonal the scatter wrote the update of
    that row, off the diagonal it kept the scaled Gram entry. -/
theorem val_main_v32_eq_cov (x0 : (⟨S8192x512, .f32⟩ : BufTy).Contents (Elt Ideal)) (x2 : (⟨S1, .f32⟩ : BufTy).Contents (Elt Ideal))
    (x3 : (⟨S512x1, .f32⟩ : BufTy).Contents (Elt Ideal)) (x5 : (⟨S1, .f32⟩ : BufTy).Contents (Elt Ideal)) :
    val_main_v32 (F := Ideal) x0 x2 x3 x5 = Cert.CovSpec.cov x0 x2 x3 x5 := by
  funext i
  obtain ⟨r, c, rfl⟩ : ∃ r c, i = ix2 r c := ⟨i 0, i 1, eq_ix2 i⟩
  unfold val_main_v32
  have hland := resultIdx_eq (val_main_v31 (F := Ideal)) val_main_v31_eq
  by_cases h : r = c
  · subst h
    rw [Cert.CovSpec.cov_diag]
    exact (ScatterSet.scatter_set_hit scatter_S8192x8192_S8192x2_S8192_n_01_01_1 (val_main_v17 (F := Ideal) x0 x2)
      (val_main_v31 (F := Ideal)) (val_main_v12 (F := Ideal) x0 x3 x5) (fun j => ix2 (j 0) (j 0)) hland diag_injective
      (ix1 r)).trans (val_main_v12_eq x0 x3 x5 r)
  · rw [Cert.CovSpec.cov_off _ _ _ _ _ _ h]
    exact (ScatterSet.scatter_set_miss scatter_S8192x8192_S8192x2_S8192_n_01_01_1 (val_main_v17 (F := Ideal) x0 x2)
      (val_main_v31 (F := Ideal)) (val_main_v12 (F := Ideal) x0 x3 x5) (fun j => ix2 (j 0) (j 0)) hland (ix2 r c)
      (fun j e => h ((congrFun e 0).symm.trans (congrFun e 1)))).trans (val_main_v17_eq x0 x2 r c)

end Cert.RefCov

end
-- ==== Proof.lean ====
/-
  A Gaussian head's mean and covariance: a tiled kernel against its plain reference, on the extended reals.

  From x : [8192, 512], two weight columns, two biases and a scale rho, both programs return
    * the mean column   mean[r] = (sum over k of x[r,k] * w_mu[k]) + b_mu, and
    * the covariance    cov[r,c] = sum over k of (x[r,k] * rho) * x[c,k]  for r ≠ c,
                        cov[r,r] = log1p (exp ((sum over k of x[r,k] * w_var[k]) + b_var)) + eps.
  (Proof/Spec.lean states these two functions once.)

  The kernel program forms both heads by one product with the two weight columns side by side, keeps column 0 as
  the mean, turns column 1 into the diagonal column, and then fills the covariance tile by tile on a 4 x 4 grid:
  each tile is the product of a row tile of the scaled x with the transpose of a row tile of x, and on the four
  diagonal tiles the tile's own diagonal is overwritten by the diagonal column (Proof/KernelHost.lean reads the
  operations before the tiles, Proof/Pieces.lean and Proof/Payload.lean read a tile, Proof/Blocks.lean puts the
  sixteen tiles together). The reference forms the two heads separately, the whole scaled Gram matrix by one
  product, and writes the diagonal by a replacing scatter at the positions (n, n) (Proof/RefMean.lean,
  Proof/RefCov.lean over Proof/LibScatterSet.lean). At exact arithmetic a change of float format is the identity
  and both programs add the same products in the same order, so the two pairs of results are equal entry by entry;
  no algebraic law and no finiteness of the inputs is used. The idealization rewrote no operation, so it preserves
  the kernel trivially; the three frames are the generated ones (the reference's is its generated run with the
  results dropped).
-/
import proofs.«161386_j89807766159361_2_alg».proof.Defs
import proofs.«161386_j89807766159361_2_alg».proof.Proof.Gen.Kernel
import proofs.«161386_j89807766159361_2_alg».proof.Proof.Gen.Kernel.Skeleton
import proofs.«161386_j89807766159361_2_alg».proof.Proof.Gen.Kernel.Launch
import proofs.«161386_j89807766159361_2_alg».proof.Proof.Gen.Kernel.Points
import proofs.«161386_j89807766159361_2_alg».proof.Proof.Gen.Kernel.Frame
import proofs.«161386_j89807766159361_2_alg».proof.Proof.Gen.KernelIdeal
import proofs.«161386_j89807766159361_2_alg».proof.Proof.Gen.KernelIdeal.Skeleton
import proofs.«161386_j89807766159361_2_alg».proof.Proof.Gen.KernelIdeal.Launch
import proofs.«161386_j89807766159361_2_alg».proof.Proof.Gen.KernelIdeal.Points
import proofs.«161386_j89807766159361_2_alg».proof.Proof.Gen.KernelIdeal.Frame
import proofs.«161386_j89807766159361_2_alg».proof.Proof.Gen.ReferenceIdeal
import proofs.«161386_j89807766159361_2_alg».proof.Proof.Gen.Pre_finite_inputs
import proofs.«161386_j89807766159361_2_alg».proof.Proof.Gen.KernelIdeal.Value
import proofs.«161386_j89807766159361_2_alg».proof.Proof.Gen.ReferenceIdeal.Run
import proofs.«161386_j89807766159361_2_alg».proof.Proof.Gen.ReferenceIdeal.Read
import proofs.«161386_j89807766159361_2_alg».proof.Proof.Spec
import proofs.«161386_j89807766159361_2_alg».proof.Proof.KernelHost
import proofs.«161386_j89807766159361_2_alg».proof.Proof.Blocks
import proofs.«161386_j89807766159361_2_alg».proof.Proof.RefMean
import proofs.«161386_j89807766159361_2_alg».proof.Proof.RefCov
import Idealize.ShloMosaic.Adequacy
import Idealize.ShloMosaic.Init

noncomputable section

namespace Cert.Proof

open Idealize.ShloMosaic Idealize.ShloMosaic.TcCoe Idealize.SL.Sem

/-- The word-level kernel program runs and leaves its arguments unchanged. -/
theorem frame_kernel : Cert.frame_Kernel := fun m ρ _ => Cert.Kernel.Gen.frame m ρ

/-- So does its reading at exact arithmetic. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- No operation was rewritten on the way to exact arithmetic. -/
theorem preserves : Cert.preserves_Kernel_KernelIdeal := trivial

/-- What the operations before the tiles leave in the arrays the tiles are cut from, on every core. -/
theorem hostReads (m : (ℓ : Loc Cert.KernelIdeal.nD Cert.KernelIdeal.τ Cert.KernelIdeal.sig) → Buf (Elt Ideal) ℓ)
    (c : Dev Cert.KernelIdeal.nD) : Cert.KernelIdeal.Tile.HostReads m c :=
  ⟨Cert.KernelHost.v15_apply m c, Cert.KernelHost.v16_apply m c, Cert.KernelHost.v11_apply m c, Cert.KernelHost.v6_mean m c⟩

/-- From arguments that agree, the kernel program ends with the specification's mean and covariance of them (the tiles
    put together), and the reference with the same two functions of the same arguments (its operations read index by
    index, the scatter leaving the diagonal column on the diagonal and the Gram entries elsewhere). -/
theorem algebraic : Cert.algebraic_KernelIdeal_ReferenceIdeal := by
  intro m ρ m' ρ' _ hagree
  refine ⟨fun c => Cert.CovSpec.mean (Cert.KernelIdeal.Tile.argX m c) (Cert.KernelIdeal.Tile.argMuW m c) (Cert.KernelIdeal.Tile.argMuB m c),
    fun c => Cert.CovSpec.cov (Cert.KernelIdeal.Tile.argX m c) (Cert.KernelIdeal.Tile.argRho m c)
      (Cert.KernelIdeal.Tile.argVarW m c) (Cert.KernelIdeal.Tile.argVarB m c),
    Cert.KernelIdeal.Tile.run m ρ (hostReads m), ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v3_eq, Cert.RefMean.val_main_v3_eq_mean, (hagree c).1, (hagree c).2.1,
      (hagree c).2.2.2.2.1]
  · rw [Cert.ReferenceIdeal.Read.val_main_v32_eq, Cert.RefCov.val_main_v32_eq_cov, (hagree c).1, (hagree c).2.2.1,
      (hagree c).2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
